-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x112x112 : Shape := ⟨4, ![64, 64, 112, 112]⟩
abbrev S64 : Shape := ⟨1, ![64]⟩
abbrev S_ : Shape := ⟨0, ![]⟩

class Facts : Prop where
  bcast_S_S64x64x112x112 : S_.BroadcastsInDim S64x64x112x112 (![] : Fin 0 → Fin S64x64x112x112.rank)
  reducesTo_S64x64x112x112_S_d0_1_2_3 : S64x64x112x112.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x64x112x112 .f32) (main_arg1 : FVec F S64 .f32) (main_arg2 : FVec F S64 .f32) (main_arg3 : FVec F S64 .f32) (main_arg4 : FVec F S64 .f32) (main_arg5 : IVec S64 32) : IVec S_ 1 :=
  let main_v0 : FVec F S64x64x112x112 .f32 := Host.absf main_arg0
  let main_cst : FVec F S_ .f32 := constant S_ .f32 0x7F800000#32
  let main_v1 : FVec F S64x64x112x112 .f32 := broadcastInDim S64x64x112x112 ![] bcast_S_S64x64x112x112 main_cst
  let main_v2 : IVec S64x64x112x112 1 := cmpf .olt main_v0 main_v1
  let main_c : IVec S_ 1 := constantI S_ 1 1#1
  let main_v3 : IVec S_ 1 := (fun x v => Host.reduce IntOp.andi x v reducesTo_S64x64x112x112_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S64x64x112x112 : Shape := ⟨4, ![64, 64, 112, 112]⟩
abbrev S64 : Shape := ⟨1, ![64]⟩
abbrev S64x64x12544 : Shape := ⟨3, ![64, 64, 12544]⟩
abbrev S64x64 : Shape := ⟨2, ![64, 64]⟩
abbrev S8x64x1792 : Shape := ⟨3, ![8, 64, 1792]⟩
abbrev S8x64 : Shape := ⟨2, ![8, 64]⟩
abbrev S_ : Shape := ⟨0, ![]⟩
abbrev S4x64 : Shape := ⟨2, ![4, 64]⟩
abbrev S64x1 : Shape := ⟨2, ![64, 1]⟩
abbrev S4 : Shape := ⟨1, ![4]⟩
abbrev S4x1 : Shape := ⟨2, ![4, 1]⟩
abbrev S1x64 : Shape := ⟨2, ![1, 64]⟩
abbrev S8x64x1 : Shape := ⟨3, ![8, 64, 1]⟩
abbrev S1x64x1 : Shape := ⟨3, ![1, 64, 1]⟩

abbrev nBuf : Space → Nat
  | .hbm => 82
  | .vmem => 16
  | .smem => 0
  | _ => 0

abbrev bufTy : (tb : Table) → Fin (tcTables nBuf tb) → BufTy
  | .hbm, ⟨0, _⟩ => ⟨S64x64x112x112, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .i32⟩
  | .hbm, ⟨6, _⟩ => ⟨S64x64x12544, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S4x64, .f32⟩
  | .hbm, ⟨11, _⟩ => ⟨S64x1, .i32⟩
  | .hbm, ⟨12, _⟩ => ⟨S4x64, .f32⟩
  | .hbm, ⟨13, _⟩ => ⟨S_, .f32⟩
  | .hbm, ⟨14, _⟩ => ⟨S4x64, .f32⟩
  | .hbm, ⟨15, _⟩ => ⟨S64x1, .i32⟩
  | .hbm, ⟨16, _⟩ => ⟨S4x64, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S4, .f32⟩
  | .hbm, ⟨21, _⟩ => ⟨S64x1, .i32⟩
  | .hbm, ⟨22, _⟩ => ⟨S4, .f32⟩
  | .hbm, ⟨23, _⟩ => ⟨S4x1, .f32⟩
  | .hbm, ⟨24, _⟩ => ⟨S_, .f32⟩
  | .hbm, ⟨25, _⟩ => ⟨S4x1, .f32⟩
  | .hbm, ⟨26, _⟩ => ⟨S4x1, .f32⟩
  | .hbm, ⟨27, _⟩ => ⟨S_, .f32⟩
  | .hbm, ⟨28, _⟩ => ⟨S4x1, .f32⟩
  | .hbm, ⟨29, _⟩ => ⟨S4x1, .f32⟩
  | .hbm, ⟨30, _⟩ => ⟨S4x64, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S4x64, .f32⟩
  | .hbm, ⟨35, _⟩ => ⟨S4x64, .f32⟩
  | .hbm, ⟨36, _⟩ => ⟨S_, .f32⟩
  | .hbm, ⟨37, _⟩ => ⟨S4x1, .f32⟩
  | .hbm, ⟨38, _⟩ => ⟨S4x1, .f32⟩
  | .hbm, ⟨39, _⟩ => ⟨S_, .f32⟩
  | .hbm, ⟨40, _⟩ => ⟨S4x1, .f32⟩
  | .hbm, ⟨41, _⟩ => ⟨S4x1, .f32⟩
  | .hbm, ⟨42, _⟩ => ⟨S4x64, .f32⟩
  | .hbm, ⟨43, _⟩ => ⟨S4x64, .f32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S64x1, .i32⟩
  | .hbm, ⟨52, _⟩ => ⟨S64x64, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S1x64, .f32⟩
  | .hbm, ⟨57, _⟩ => ⟨S_, .f32⟩
  | .hbm, ⟨58, _⟩ => ⟨S1x64, .f32⟩
  | .hbm, ⟨59, _⟩ => ⟨S1x64, .f32⟩
  | .hbm, ⟨60, _⟩ => ⟨S64x64, .f32⟩
  | .hbm, ⟨61, _⟩ => ⟨S64x64, .f32⟩
  | .hbm, ⟨62, _⟩ => ⟨S_, .i32⟩
  | .hbm, ⟨63, _⟩ => ⟨S64, .i32⟩
  | .hbm, ⟨64, _⟩ => ⟨S64, .i1⟩
  | .hbm, ⟨65, _⟩ => ⟨S_, .i32⟩
  | .hbm, ⟨66, _⟩ => ⟨S64, .i32⟩
  | .hbm, ⟨67, _⟩ => ⟨S64, .i32⟩
  | .hbm, ⟨68, _⟩ => ⟨S64, .i32⟩
  | .hbm, ⟨69, _⟩ => ⟨S64x1, .i32⟩
  | .hbm, ⟨70, _⟩ => ⟨S64x64, .f32⟩
  | .hbm, ⟨71, _⟩ => ⟨S_, .f32⟩
  | .hbm, ⟨72, _⟩ => ⟨S64x64, .f32⟩
  | .hbm, ⟨73, _⟩ => ⟨S64x64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S64x64, .f32⟩
  | .hbm, ⟨79, _⟩ => ⟨S64x64, .f32⟩
  | .hbm, ⟨80, _⟩ => ⟨S64x64x12544, .f32⟩
  | .hbm, ⟨81, _⟩ => ⟨S64x64x112x112, .f32⟩
  | .local _ .vmem, ⟨0, _⟩ => ⟨S8x64x1792, .f32⟩
  | .local _ .vmem, ⟨1, _⟩ => ⟨S8x64x1792, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64x1792, .f32⟩
  | .local _ .vmem, ⟨7, _⟩ => ⟨S8x64x1792, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S64, .f32⟩
  | .local _ .vmem, ⟨13, _⟩ => ⟨S64, .f32⟩
  | .local _ .vmem, ⟨14, _⟩ => ⟨S8x64x1792, .f32⟩
  | .local _ .vmem, ⟨15, _⟩ => ⟨S8x64x1792, .f32⟩
  | _, _ => ⟨S64x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![8, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x64x1792 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x64x1792 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S64x64x112x112_S64x64x12544 : S64x64x112x112.ShapeCasts S64x64x12544
  inb_S8x64_S8x64_0_0 : ∀ a, (![0, 0] : Fin 2 → Nat) a + S8x64.size a ≤ S8x64.size a
  h_S8x64 : 0 < S8x64.numel
  inb_S8x64x1792_S8x64x1792_0_0_0 : ∀ a, (![0, 0, 0] : Fin 3 → Nat) a + S8x64x1792.size a ≤ S8x64x1792.size a
  h_S8x64x1792 : 0 < S8x64x1792.numel
  shapeCasts_S8x64x1792_S8x64x1792 : S8x64x1792.ShapeCasts S8x64x1792
  shapeCasts_S8x64_S8x64 : S8x64.ShapeCasts S8x64
  reduces_S8x64x1792_S8x64 : S8x64x1792.Reduces [2] S8x64
  bcast_S_S4x64 : S_.BroadcastsInDim S4x64 (![] : Fin 0 → Fin S4x64.rank)
  bcast_S64_S64x1_0 : S64.BroadcastsInDim S64x1 (![0] : Fin 1 → Fin S64x1.rank)
  bcast_S_S64 : S_.BroadcastsInDim S64 (![] : Fin 0 → Fin S64.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  bcast_S_S64x64 : S_.BroadcastsInDim S64x64 (![] : Fin 0 → Fin S64x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  shapeCasts_S8x64_S8x64x1 : S8x64.ShapeCasts S8x64x1
  inb_S64_S64_0 : ∀ a, (![0] : Fin 1 → Nat) a + S64.size a ≤ S64.size a
  h_S64 : 0 < S64.numel
  shapeCasts_S64_S1x64x1 : S64.ShapeCasts S1x64x1
  broadcasts_S8x64x1_S8x64x1792 : S8x64x1.Broadcasts S8x64x1792
  broadcasts_S1x64x1_S8x64x1792 : S1x64x1.Broadcasts S8x64x1792
  shapeCasts_S64x64x12544_S64x64x112x112 : S64x64x12544.ShapeCasts S64x64x112x112
  scatter_S4x64_S64x1_S64x64_1_0_0_1_wf : ScatterDims.WF S4x64 S64x1 S64x64 [1] [0] [0] 1
  scatter_S4_S64x1_S64_n_0_0_1_wf : ScatterDims.WF S4 S64x1 S64 [] [0] [0] 1
  gather_S4x64_S64x1_S64x64_1_0_n_n_0_1_164_wf : GatherDims.WF S4x64 S64x1 S64x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1792.size a ≤ S64x64x12544.size a
  hwx0_0 : ∀ i : grid0.Coords, EltTy.bits .f32 = 32 ∨ (Rect.block (s := S64x64x12544) S8x64x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S64x64.size a
  hwx0_1 : ∀ i : grid0.Coords, EltTy.bits .f32 = 32 ∨ (Rect.block (s := S64x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S64x64.size a
  hwx0_2 : ∀ i : grid0.Coords, EltTy.bits .f32 = 32 ∨ (Rect.block (s := S64x64) S8x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x1792.size a ≤ S64x64x12544.size a
  hwx1_0 : ∀ i : grid1.Coords, EltTy.bits .f32 = 32 ∨ (Rect.block (s := S64x64x12544) S8x64x1792.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S64x64.size a
  hwx1_1 : ∀ i : grid1.Coords, EltTy.bits .f32 = 32 ∨ (Rect.block (s := S64x64) S8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S64x64.size a
  hwx1_2 : ∀ i : grid1.Coords, EltTy.bits .f32 = 32 ∨ (Rect.block (s := S64x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x64x1792.size a ≤ S64x64x12544.size a
  hwx1_5 : ∀ i : grid1.Coords, EltTy.bits .f32 = 32 ∨ (Rect.block (s := S64x64x12544) S8x64x1792.size (cc1_transform_5 i) (hinb1_5 i)).WholeWords (EltTy.packing .f32)

variable [Facts₀]

def scatter_S4x64_S64x1_S64x64_1_0_0_1 : ScatterDims S4x64 S64x1 S64x64 where
  updateWindowDims := [1]
  insertedWindowDims := [0]
  scatterDimsToOperandDims := [0]
  indexVectorDim := 1
  wf := scatter_S4x64_S64x1_S64x64_1_0_0_1_wf
def scatter_S4_S64x1_S64_n_0_0_1 : ScatterDims S4 S64x1 S64 where
  updateWindowDims := []
  insertedWindowDims := [0]
  scatterDimsToOperandDims := [0]
  indexVectorDim := 1
  wf := scatter_S4_S64x1_S64_n_0_0_1_wf
def gather_S4x64_S64x1_S64x64_1_0_n_n_0_1_164 : GatherDims S4x64 S64x1 S64x64 where
  offsetDims := [1]
  collapsedSliceDims := [0]
  operandBatchingDims := []
  startIndicesBatchingDims := []
  startIndexMap := [0]
  indexVectorDim := 1
  sliceSizes := ![1, 64]
  wf := gather_S4x64_S64x1_S64x64_1_0_n_n_0_1_164_wf

abbrev win0_0 : Pipeline.Window sig grid0 :=
  Pipeline.Window.ofSpec (Memref.whole main_v0) S8x64x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x64x1792.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S8x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S8x64x1792.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x64x112x112 : Shape := ⟨4, ![64, 64, 112, 112]⟩
abbrev S64 : Shape := ⟨1, ![64]⟩
abbrev S_ : Shape := ⟨0, ![]⟩
abbrev S64x64 : Shape := ⟨2, ![64, 64]⟩
abbrev S4x64 : Shape := ⟨2, ![4, 64]⟩
abbrev S64x1 : Shape := ⟨2, ![64, 1]⟩
abbrev S4 : Shape := ⟨1, ![4]⟩
abbrev S4x1 : Shape := ⟨2, ![4, 1]⟩
abbrev S1x64 : Shape := ⟨2, ![1, 64]⟩
abbrev S64x64x1x1 : Shape := ⟨4, ![64, 64, 1, 1]⟩
abbrev S1x64x1x1 : Shape := ⟨4, ![1, 64, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S64x64x112x112, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .i32⟩
  | .hbm, ⟨6, _⟩ => ⟨S_, .f32⟩
  | .hbm, ⟨7, _⟩ => ⟨S64x64, .f32⟩
  | .hbm, ⟨8, _⟩ => ⟨S64x64x112x112, .f32⟩
  | .hbm, ⟨9, _⟩ => ⟨S_, .f32⟩
  | .hbm, ⟨10, _⟩ => ⟨S64x64, .f32⟩
  | .hbm, ⟨11, _⟩ => ⟨S_, .f32⟩
  | .hbm, ⟨12, _⟩ => ⟨S4x64, .f32⟩
  | .hbm, ⟨13, _⟩ => ⟨S64x1, .i32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S64x1, .i32⟩
  | .hbm, ⟨18, _⟩ => ⟨S4x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S4, .f32⟩
  | .hbm, ⟨23, _⟩ => ⟨S64x1, .i32⟩
  | .hbm, ⟨24, _⟩ => ⟨S4, .f32⟩
  | .hbm, ⟨25, _⟩ => ⟨S4x1, .f32⟩
  | .hbm, ⟨26, _⟩ => ⟨S_, .f32⟩
  | .hbm, ⟨27, _⟩ => ⟨S4x1, .f32⟩
  | .hbm, ⟨28, _⟩ => ⟨S4x1, .f32⟩
  | .hbm, ⟨29, _⟩ => ⟨S_, .f32⟩
  | .hbm, ⟨30, _⟩ => ⟨S4x1, .f32⟩
  | .hbm, ⟨31, _⟩ => ⟨S4x1, .f32⟩
  | .hbm, ⟨32, _⟩ => ⟨S4x64, .f32⟩
  | .hbm, ⟨33, _⟩ => ⟨S4x64, .f32⟩
  | .hbm, ⟨34, _⟩ => ⟨S4x64, .f32⟩
  | .hbm, ⟨35, _⟩ => ⟨S4x64, .f32⟩
  | .hbm, ⟨36, _⟩ => ⟨S4x64, .f32⟩
  | .hbm, ⟨37, _⟩ => ⟨S4x64, .f32⟩
  | .hbm, ⟨38, _⟩ => ⟨S_, .f32⟩
  | .hbm, ⟨39, _⟩ => ⟨S4x1, .f32⟩
  | .hbm, ⟨40, _⟩ => ⟨S4x1, .f32⟩
  | .hbm, ⟨41, _⟩ => ⟨S_, .f32⟩
  | .hbm, ⟨42, _⟩ => ⟨S4x1, .f32⟩
  | .hbm, ⟨43, _⟩ => ⟨S4x1, .f32⟩
  | .hbm, ⟨44, _⟩ => ⟨S4x64, .f32⟩
  | .hbm, ⟨45, _⟩ => ⟨S4x64, .f32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S64x64, .f32⟩
  | .hbm, ⟨63, _⟩ => ⟨S64x64, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S64x1, .i32⟩
  | .hbm, ⟨72, _⟩ => ⟨S64x64, .f32⟩
  | .hbm, ⟨73, _⟩ => ⟨S_, .f32⟩
  | .hbm, ⟨74, _⟩ => ⟨S64x64, .f32⟩
  | .hbm, ⟨75, _⟩ => ⟨S64x64, .f32⟩
  | .hbm, ⟨76, _⟩ => ⟨S1x64, .f32⟩
  | .hbm, ⟨77, _⟩ => ⟨S_, .f32⟩
  | .hbm, ⟨78, _⟩ => ⟨S1x64, .f32⟩
  | .hbm, ⟨79, _⟩ => ⟨S1x64, .f32⟩
  | .hbm, ⟨80, _⟩ => ⟨S64x64, .f32⟩
  | .hbm, ⟨81, _⟩ => ⟨S64x64, .f32⟩
  | .hbm, ⟨82, _⟩ => ⟨S64x64x1x1, .f32⟩
  | .hbm, ⟨83, _⟩ => ⟨S64x64x112x112, .f32⟩
  | .hbm, ⟨84, _⟩ => ⟨S64x64x112x112, .f32⟩
  | .hbm, ⟨85, _⟩ => ⟨S_, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64x1x1, .f32⟩
  | .hbm, ⟨90, _⟩ => ⟨S64x64x112x112, .f32⟩
  | .hbm, ⟨91, _⟩ => ⟨S64x64x112x112, .f32⟩
  | .hbm, ⟨92, _⟩ => ⟨S1x64x1x1, .f32⟩
  | .hbm, ⟨93, _⟩ => ⟨S64x64x112x112, .f32⟩
  | .hbm, ⟨94, _⟩ => ⟨S64x64x112x112, .f32⟩
  | .hbm, ⟨95, _⟩ => ⟨S1x64x1x1, .f32⟩
  | .hbm, ⟨96, _⟩ => ⟨S64x64x112x112, .f32⟩
  | .hbm, ⟨97, _⟩ => ⟨S64x64x112x112, .f32⟩
  | _, _ => ⟨S64x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  reducesTo_S64x64x112x112_S64x64_d2_3 : S64x64x112x112.ReducesTo [2, 3] S64x64
  h_S_ : 0 < S_.numel
  bcast_S_S4x64 : S_.BroadcastsInDim S4x64 (![] : Fin 0 → Fin S4x64.rank)
  bcast_S64_S64x1_0 : S64.BroadcastsInDim S64x1 (![0] : Fin 1 → Fin S64x1.rank)
  bcast_S_S64 : S_.BroadcastsInDim S64 (![] : Fin 0 → Fin S64.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  bcast_S_S64x64 : S_.BroadcastsInDim S64x64 (![] : Fin 0 → Fin S64x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  bcast_S64x64_S64x64x1x1_0_1 : S64x64.BroadcastsInDim S64x64x1x1 (![0, 1] : Fin 2 → Fin S64x64x1x1.rank)
  bcast_S64x64x1x1_S64x64x112x112_0_1_2_3 : S64x64x1x1.BroadcastsInDim S64x64x112x112 (![0, 1, 2, 3] : Fin 4 → Fin S64x64x112x112.rank)
  bcast_S64_S1x64x1x1_1 : S64.BroadcastsInDim S1x64x1x1 (![1] : Fin 1 → Fin S1x64x1x1.rank)
  bcast_S1x64x1x1_S64x64x112x112_0_1_2_3 : S1x64x1x1.BroadcastsInDim S64x64x112x112 (![0, 1, 2, 3] : Fin 4 → Fin S64x64x112x112.rank)
  scatter_S4x64_S64x1_S64x64_1_0_0_1_wf : ScatterDims.WF S4x64 S64x1 S64x64 [1] [0] [0] 1
  scatter_S4_S64x1_S64_n_0_0_1_wf : ScatterDims.WF S4 S64x1 S64 [] [0] [0] 1
  gather_S4x64_S64x1_S64x64_1_0_n_n_0_1_164_wf : GatherDims.WF S4x64 S64x1 S64x64 [1] [0] [] [0] [] 1 ![1, 64]

variable [Facts₀]

def scatter_S4x64_S64x1_S64x64_1_0_0_1 : ScatterDims S4x64 S64x1 S64x64 where
  updateWindowDims := [1]
  insertedWindowDims := [0]
  scatterDimsToOperandDims := [0]
  indexVectorDim := 1
  wf := scatter_S4x64_S64x1_S64x64_1_0_0_1_wf
def scatter_S4_S64x1_S64_n_0_0_1 : ScatterDims S4 S64x1 S64 where
  updateWindowDims := []
  insertedWindowDims := [0]
  scatterDimsToOperandDims := [0]
  indexVectorDim := 1
  wf := scatter_S4_S64x1_S64_n_0_0_1_wf
def gather_S4x64_S64x1_S64x64_1_0_n_n_0_1_164 : GatherDims S4x64 S64x1 S64x64 where
  offsetDims := [1]
  collapsedSliceDims := [0]
  operandBatchingDims := []
  startIndicesBatchingDims := []
  startIndexMap := [0]
  indexVectorDim := 1
  sliceSizes := ![1, 64]
  wf := gather_S4x64_S64x1_S64x64_1_0_n_n_0_1_164_wf

class Facts : Prop extends Facts₀ where

variable [Facts]
-- ==== Proof.KernelRun.lean ====
/-
  The idealized kernel's whole run, with its result named.

  The program is five segments: the reshape of `x` to [64, 64, 12544]; the first launch (per-sample sums and sums
  of squares over the flattened spatial axis); the per-cluster statistics and their blend with the running
  statistics; the second launch (normalize and affine); the reshape back to [64, 64, 112, 112].  The buffer
  contents at each segment boundary are a fold from the launch memory; every weakly fair execution terminates
  with every unscoped buffer at the last boundary's contents.  Read at the result buffer this names the
  result array after the run; read at the arguments it says they are unchanged.
-/
import proofs.«167167_j38560216383790_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    last boundary's contents and the six arguments as launched. -/
theorem run_result : θ_run defs (onTc (τ := τ) (main (F := F))) ⟨m, fun _ => 0, ρ⟩ (fun r => ∀ c : Dev nD,
      r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v58 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Whole

end
-- ==== Proof.Glue.lean ====
/-
  The host arithmetic between the two launches, as functions of the per-sample sums.

  From the [64, 64] arrays `s` (sums) and `ss` (sums of squares), the cluster labels and a running statistic:
  the per-cluster totals are scatter-adds by label into four rows; the count of samples per cluster is a
  scatter-add of ones, times 12544 elements per sample and channel; the cluster mean is the total over
  max(N, 1), the unbiased variance (SS − N·mean·mean) / max(N − 1, 1); each sample takes its cluster's row
  (a gather by the label, negative labels wrapped by 4) and blends it as 0.2·cluster + 0.8·running.
  Both programs spell this arithmetic with the same operations in the same order, so it is stated once and the
  two sides are compared through it without ever opening a scatter or a gather.
-/
import proofs.«167167_j38560216383790_2_alg».proof.KernelIdeal
import proofs.«167167_j38560216383790_2_alg».proof.Proof.Gen.KernelIdeal

noncomputable section

namespace Cert.KernelIdeal.Glue

open Idealize.ShloMosaic
open Cert.KernelIdeal Cert.KernelIdeal.Gen

variable {F : FTy → Type} [FloatOps F]

/-- Samples per cluster: ones scattered by label into four bins. -/
def count (lab : IVec S64 32) : FVec F S4 .f32 :=
  Host.scatterAdd scatter_S4_S64x1_S64_n_0_0_1 (broadcastInDim S4 ![] bcast_S_S4 (constant S_ .f32 0x00000000#32))
    (broadcastInDim S64x1 ![0] bcast_S64_S64x1_0 lab) (broadcastInDim S64 ![] bcast_S_S64 (constant S_ .f32 0x3F800000#32))

/-- Elements per (cluster, channel): the count times 12544. -/
def elems (lab : IVec S64 32) : FVec F S4x1 .f32 :=
  mulf (broadcastInDim S4x1 ![0] bcast_S4_S4x1_0 (count (F := F) lab)) (broadcastInDim S4x1 ![] bcast_S_S4x1 (constant S_ .f32 0x46440000#32))

/-- Per-cluster totals of a per-sample array: its rows scattered by label into four rows. -/
def total (lab : IVec S64 32) (u : FVec F S64x64 .f32) : FVec F S4x64 .f32 :=
  Host.scatterAdd scatter_S4x64_S64x1_S64x64_1_0_0_1 (broadcastInDim S4x64 ![] bcast_S_S4x64 (constant S_ .f32 0x00000000#32))
    (broadcastInDim S64x1 ![0] bcast_S64_S64x1_0 lab) u

/-- The cluster mean: total over max(N, 1). -/
def clusterMean (s : FVec F S64x64 .f32) (lab : IVec S64 32) : FVec F S4x64 .f32 :=
  Host.divf (total lab s) (broadcastInDim S4x64 ![0, 1] bcast_S4x1_S4x64_0_1
    (maximumf (elems (F := F) lab) (broadcastInDim S4x1 ![] bcast_S_S4x1 (constant S_ .f32 0x3F800000#32))))

/-- The cluster's unbiased variance: (SS − N·mean·mean) / max(N − 1, 1). -/
def clusterVar (s ss : FVec F S64x64 .f32) (lab : IVec S64 32) : FVec F S4x64 .f32 :=
  Host.divf (subf (total lab ss)
      (mulf (mulf (broadcastInDim S4x64 ![0, 1] bcast_S4x1_S4x64_0_1 (elems (F := F) lab)) (clusterMean s lab)) (clusterMean s lab)))
    (broadcastInDim S4x64 ![0, 1] bcast_S4x1_S4x64_0_1
      (maximumf (subf (elems (F := F) lab) (broadcastInDim S4x1 ![] bcast_S_S4x1 (constant S_ .f32 0x3F800000#32)))
        (broadcastInDim S4x1 ![] bcast_S_S4x1 (constant S_ .f32 0x3F800000#32))))

/-- The labels as gather start indices: a negative label has 4 added. -/
def wrapped (lab : IVec S64 32) : IVec S64x1 32 :=
  broadcastInDim S64x1 ![0] bcast_S64_S64x1_0
    (select (cmpi .slt lab (broadcastInDim S64 ![] bcast_S_S64 (constantI S_ 32 0#32)))
      (addi lab (broadcastInDim S64 ![] bcast_S_S64 (constantI S_ 32 4#32))) lab)

/-- Each sample's blended statistic: 0.2 · (its cluster's row) + 0.8 · (the running row). -/
def blend (g : FVec F S4x64 .f32) (lab : IVec S64 32) (run : FVec F S64 .f32) : FVec F S64x64 .f32 :=
  addf (mulf (broadcastInDim S64x64 ![] bcast_S_S64x64 (constant S_ .f32 0x3E4CCCCD#32))
      (Host.gather gather_S4x64_S64x1_S64x64_1_0_n_n_0_1_164 g (wrapped lab)))
    (broadcastInDim S64x64 ![0, 1] bcast_S1x64_S64x64_0_1
      (mulf (broadcastInDim S1x64 ![] bcast_S_S1x64 (constant S_ .f32 0x3F4CCCCD#32)) (broadcastInDim S1x64 ![1] bcast_S64_S1x64_1 run)))

/-- The blended mean of every (sample, channel). -/
def mean (s : FVec F S64x64 .f32) (lab : IVec S64 32) (runMean : FVec F S64 .f32) : FVec F S64x64 .f32 :=
  blend (clusterMean s lab) lab runMean

/-- The blended variance of every (sample, channel). -/
def var (s ss : FVec F S64x64 .f32) (lab : IVec S64 32) (runVar : FVec F S64 .f32) : FVec F S64x64 .f32 :=
  blend (clusterVar s ss lab) lab runVar

end Cert.KernelIdeal.Glue

end
-- ==== Proof.GlueRun.lean ====
/-
  The buffer contents at the boundaries between the program's segments, read where the value proof needs them.

  Before the first launch `x` is reshaped to [64, 64, 12544].  Between the launches the host computes the blended
  mean and variance from the first launch's two output arrays, the labels and the running statistics; the second
  launch is entered with those, the reshaped `x` (which the first launch only read), and the weight and bias as
  launched.  After the second launch its output is reshaped back to [64, 64, 112, 112].
-/
import proofs.«167167_j38560216383790_2_alg».proof.Proof.Gen.KernelIdeal.Frame
import proofs.«167167_j38560216383790_2_alg».proof.Proof.Glue
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The first launch is entered with `x` reshaped. -/
theorem entry0_x (c : Dev nD) :
    V1 m ρ c main_v0 = shapeCast S64x64x12544 (m ((c : Thread nD τ).loc main_arg0)) shapeCasts_S64x64x112x112_S64x64x12544 := by
  show StableHlo.after hostOps0 (W0 m ρ c) (Proc.devRef .tc main_v0) = _
  after_results
  rfl

/-- An argument buffer is still as launched when the first launch is left. -/
theorem exit0_arg (c : Dev nD) (b : Ref sig .tc) (hb : ∀ w, Pipeline.arrRef spec0 w ≠ b) (h0 : b ≠ main_v0) :
    W2 m ρ c (Proc.devRef .tc b) = m ((c : Thread nD τ).loc b) := by
  rw [W2_of_ne m ρ c b hb]
  show StableHlo.after hostOps0 (W0 m ρ c) (Proc.devRef .tc b) = _
  simp only [after_cons, after_nil]
  rw [reshape_result_ne]
  exact h0

/-- The reshaped `x` is still there when the first launch is left: the launch only reads it. -/
theorem exit0_x (c : Dev nD) : W2 m ρ c (Proc.devRef .tc main_v0) = V1 m ρ c main_v0 :=
  (W2_arr m ρ c 0).trans (((dat0 (V1 m ρ) c).arrAt_in 0 rfl _).trans (A_eq0 (V1 m ρ) c 0))

set_option maxHeartbeats 4000000 in
/-- The second launch's mean operand is the blended mean of the first launch's sums. -/
theorem entry1_mean (c : Dev nD) :
    V3 m ρ c main_v42 = Glue.mean (W2 m ρ c (Proc.devRef .tc main_v1_0)) (W2 m ρ c (Proc.devRef .tc main_arg5))
      (W2 m ρ c (Proc.devRef .tc main_arg1)) := by
  show StableHlo.after hostOps1 (W2 m ρ c) (Proc.devRef .tc main_v42) = _
  after_results_simp
  rfl

set_option maxHeartbeats 4000000 in
/-- The second launch's variance operand is the blended variance of the first launch's sums and sums of squares. -/
theorem entry1_var (c : Dev nD) :
    V3 m ρ c main_v56 = Glue.var (W2 m ρ c (Proc.devRef .tc main_v1_0)) (W2 m ρ c (Proc.devRef .tc main_v1_1))
      (W2 m ρ c (Proc.devRef .tc main_arg5)) (W2 m ρ c (Proc.devRef .tc main_arg2)) := by
  show StableHlo.after hostOps1 (W2 m ρ c) (Proc.devRef .tc main_v56) = _
  after_results_simp
  rfl

set_option maxHeartbeats 4000000 in
/-- The host arithmetic between the launches writes none of `x` reshaped, the weight and the bias. -/
theorem entry1_x (c : Dev nD) : V3 m ρ c main_v0 = W2 m ρ c (Proc.devRef .tc main_v0) := by
  show StableHlo.after hostOps1 (W2 m ρ c) (Proc.devRef .tc main_v0) = _
  after_results_simp

set_option maxHeartbeats 4000000 in
theorem entry1_weight (c : Dev nD) : V3 m ρ c main_arg3 = W2 m ρ c (Proc.devRef .tc main_arg3) := by
  show StableHlo.after hostOps1 (W2 m ρ c) (Proc.devRef .tc main_arg3) = _
  after_results_simp

set_option maxHeartbeats 4000000 in
theorem entry1_bias (c : Dev nD) : V3 m ρ c main_arg4 = W2 m ρ c (Proc.devRef .tc main_arg4) := by
  show StableHlo.after hostOps1 (W2 m ρ c) (Proc.devRef .tc main_arg4) = _
  after_results_simp

/-- The result is the second launch's output reshaped. -/
theorem result_eq (c : Dev nD) :
    W5 m ρ c (Proc.devRef .tc main_v58)
      = shapeCast S64x64x112x112 ((dat1 (V3 m ρ) c).arrAt 5 cfg1.N) shapeCasts_S64x64x12544_S64x64x112x112 := by
  show StableHlo.after hostOps2 (W4 m ρ c) (Proc.devRef .tc main_v58) = _
  after_results
  exact congrArg (fun a => shapeCast S64x64x112x112 a shapeCasts_S64x64x12544_S64x64x112x112) (W4_arr m ρ c 5)

end Cert.KernelIdeal.Between

end
-- ==== Proof.LibKeepdims3.lean ====
/-
  Layout operations that insert or stretch unit axes of a rank-3 array, read at an index given by its three
  coordinates.  Every statement is for an arbitrary element type and arbitrary extents; each is the library's
  general read-at-an-index lemma with the row-major positions (for a cast) or the per-axis rule (for a
  broadcast) worked out once.
-/
import Idealize.ShloMosaic.Lib.ValueIdx
import Idealize.ShloMosaic.Lib.Pipeline.Value

noncomputable section

namespace Keepdims3

open Idealize.ShloMosaic Idealize.ShloMosaic.ValueIdx

variable {α : Type}

/-- An [a, b] array cast to [a, b, 1], read at (p, q, u), is entry (p, q): the trailing unit axis carries no
    position. -/
theorem cast_trailing_unit {a b : Nat} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h _ _ ?_
  rw [Shape.rowMajor_val_two, Shape.rowMajor_val_three]
  show p.val * b + q.val = (p.val * b + q.val) * 1 + u.val
  have hu : u.val = 0 := by omega
  omega

/-- A [b] array cast to [1, b, 1], read at (z, q, u), is entry q. -/
theorem cast_both_units {b : Nat} (v : (⟨1, ![b]⟩ : Shape).Idx → α)
    (h : (⟨1, ![b]⟩ : Shape).ShapeCasts ⟨3, ![1, b, 1]⟩) (z : Fin 1) (q : Fin b) (u : Fin 1) :
    shapeCast ⟨3, ![1, b, 1]⟩ v h (ix3 z q u) = v (ix1 q) := by
  refine shapeCast_apply v h _ _ ?_
  rw [Shape.rowMajor_val_one, Shape.rowMajor_val_three]
  show q.val = (z.val * b + q.val) * 1 + u.val
  have hu : u.val = 0 := by omega
  have hz : z.val = 0 := by omega
  rw [hu, hz]; omega

/-- An [a, b, 1] array stretched along its last axis to [a, b, n], read at (p, q, r), is entry (p, q, 0). -/
theorem stretch_last {a b n : Nat} (ha : a ≠ 1) (hb : b ≠ 1) (v : (⟨3, ![a, b, 1]⟩ : Shape).Idx → α)
    (h : (⟨3, ![a, b, 1]⟩ : Shape).Broadcasts ⟨3, ![a, b, n]⟩) (p : Fin a) (q : Fin b) (r : Fin n) :
    broadcastTo ⟨3, ![a, b, n]⟩ v h (ix3 p q r) = v (ix3 p q (0 : Fin 1)) := by
  refine broadcastTo_apply v h _ _ fun d => ?_
  match d with
  | ⟨0, _⟩ => exact (if_neg (show ¬ a = 1 from ha)).symm
  | ⟨1, _⟩ => exact (if_neg (show ¬ b = 1 from hb)).symm
  | ⟨2, _⟩ => exact (if_pos (show (1 : Nat) = 1 from rfl)).symm

/-- A [1, b, 1] array stretched along its first and last axes to [a, b, n], read at (p, q, r), is entry
    (0, q, 0). -/
theorem stretch_outer {a b n : Nat} (hb : b ≠ 1) (v : (⟨3, ![1, b, 1]⟩ : Shape).Idx → α)
    (h : (⟨3, ![1, b, 1]⟩ : Shape).Broadcasts ⟨3, ![a, b, n]⟩) (p : Fin a) (q : Fin b) (r : Fin n) :
    broadcastTo ⟨3, ![a, b, n]⟩ v h (ix3 p q r) = v (ix3 (0 : Fin 1) q (0 : Fin 1)) := by
  refine broadcastTo_apply v h _ _ fun d => ?_
  match d with
  | ⟨0, _⟩ => exact (if_pos (show (1 : Nat) = 1 from rfl)).symm
  | ⟨1, _⟩ => exact (if_neg (show ¬ b = 1 from hb)).symm
  | ⟨2, _⟩ => exact (if_pos (show (1 : Nat) = 1 from rfl)).symm

end Keepdims3

end
-- ==== Proof.PayNorm.lean ====
/-
  The normalize-and-affine body, read at one element.

  The body loads a [8, 64, 1792] block of `x`, the matching [8, 64] blocks of the blended mean and variance and
  the two per-channel rows, and stores one [8, 64, 1792] block.  Element (p, q, r) of what it stores is
      ((x[p,q,r] - mean[p,q]) · rsqrt (var[p,q] + ε)) · weight[q] + bias[q]:
  the casts that append unit axes and the broadcasts that stretch them carry no arithmetic.
-/
import proofs.«167167_j38560216383790_2_alg».proof.Proof.Gen.KernelIdeal.Skeleton
import proofs.«167167_j38560216383790_2_alg».proof.Proof.LibKeepdims3

noncomputable section

namespace Cert.KernelIdeal.Norm

open Idealize.ShloMosaic Idealize.ShloMosaic.ValueIdx
open Cert.KernelIdeal Cert.KernelIdeal.Gen

variable {F : FTy → Type} [FloatOps F]

/-- The scalar the body computes from one element of `x`, the sample-and-channel's blended mean and variance,
    and the channel's weight and bias. -/
def point (x mu var w b : F .f32) : F .f32 :=
  FloatOps.addf (FloatOps.mulf (FloatOps.mulf (FloatOps.subf x mu)
    (FloatOps.rsqrt (FloatOps.addf var (Scalar.ofBits .f32 0x3727C5AC#32)))) w) b

theorem stored_at (x0 : Vec F S8x64x1792 .f32) (x1 x2 : Vec F S8x64 .f32) (x3 x4 : Vec F S64 .f32)
    (p : Fin 8) (q : Fin 64) (r : Fin 1792) :
    k1_pay1 x0 x1 x2 x3 x4 (ix3 p q r)
      = point (x0 (ix3 p q r)) (x1 (ix2 p q)) (x2 (ix2 p q)) (x3 (ix1 q)) (x4 (ix1 q)) := by
  unfold k1_pay1 point
  show FloatOps.addf (FloatOps.mulf (FloatOps.mulf (FloatOps.subf _ _) _) _) _ = _
  rw [shapeCast_self, Keepdims3.stretch_last (by decide) (by decide), Keepdims3.stretch_last (by decide) (by decide),
    Keepdims3.stretch_outer (by decide), Keepdims3.stretch_outer (by decide)]
  show FloatOps.addf (FloatOps.mulf (FloatOps.mulf (FloatOps.subf _ _) (FloatOps.rsqrt (FloatOps.addf _ _))) _) _ = _
  rw [Keepdims3.cast_trailing_unit, Keepdims3.cast_trailing_unit, Keepdims3.cast_both_units, Keepdims3.cast_both_units,
    shapeCast_self, shapeCast_self]
  rfl

end Cert.KernelIdeal.Norm

end
-- ==== Proof.Normalize.lean ====
/-
  The second launch's output array, as one function of the arrays it is entered with.

  The grid is 8 × 7: point t works on the eight samples 8·(t / 7) … 8·(t / 7) + 7, all 64 channels, and the 1792
  flattened positions 1792·(t % 7) … of `x`; the blocks of the blended mean and variance are the same eight
  samples' rows, the weight and bias rows are whole.  Every point writes its block back, and the 56 blocks tile
  the [64, 64, 12544] output.  So the output ends holding, at (s, ch, l),
      ((x[s,ch,l] - mean[s,ch]) · rsqrt (var[s,ch] + ε)) · weight[ch] + bias[ch].
-/
import proofs.«167167_j38560216383790_2_alg».proof.Proof.Gen.KernelIdeal.Frame
import proofs.«167167_j38560216383790_2_alg».proof.Proof.PayNorm
import Idealize.ShloMosaic.Lib.Pipeline.Value

set_option maxRecDepth 16384

noncomputable section

namespace Cert.KernelIdeal.Norm

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- The normalized and scaled array: each element of `x` with its sample-and-channel's statistics and its
    channel's weight and bias. -/
def whole (x : S64x64x12544.Idx → Elt F .f32) (mu var : S64x64.Idx → Elt F .f32) (w b : S64.Idx → Elt F .f32) :
    S64x64x12544.Idx → Elt F .f32 :=
  fun i => point (x i) (mu (ix2 (i 0 : Fin 64) (i 1 : Fin 64))) (var (ix2 (i 0 : Fin 64) (i 1 : Fin 64)))
    (w (ix1 (i 1 : Fin 64))) (b (ix1 (i 1 : Fin 64)))

/-- Where each window's block sits at point `t`, decided over the grid: the `x` block and the output block
    coincide; the statistics' blocks are the same samples' rows; the weight and bias blocks are the whole rows;
    the output's block is (t / 7, 0, t % 7). -/
theorem block_places : ∀ t : Fin cfg1.N,
    win1_0.index t (0 : Fin 3) = win1_5.index t (0 : Fin 3) ∧ win1_0.index t (1 : Fin 3) = 0
    ∧ win1_0.index t (2 : Fin 3) = win1_5.index t (2 : Fin 3)
    ∧ win1_1.index t (0 : Fin 2) = win1_5.index t (0 : Fin 3) ∧ win1_1.index t (1 : Fin 2) = 0
    ∧ win1_2.index t (0 : Fin 2) = win1_5.index t (0 : Fin 3) ∧ win1_2.index t (1 : Fin 2) = 0
    ∧ win1_3.index t (0 : Fin 1) = 0 ∧ win1_4.index t (0 : Fin 1) = 0
    ∧ win1_5.index t (1 : Fin 3) = 0 ∧ win1_5.index t (0 : Fin 3) = t.val / 7 ∧ win1_5.index t (2 : Fin 3) = t.val % 7 :=
  (by decide +kernel : ∀ t : Fin grid1.N, _)

/-- What point `t` writes back is block `t` of `whole` of the arrays the launch is entered with. -/
theorem flushed_eq (c : Dev nD) (t : Fin cfg1.N) :
    (dat1 V c).flushed 5 t = ((cfg1.win 5).blk t).view.read (Elt F)
      (whole (V c main_v0) (V c main_v42) (V c main_v56) (V c main_arg3) (V c main_arg4)) := by
  show (cfg1.win 5).cut (grid1.coords t) ((dat1 V c).after 5 t) = _
  rw [after1_5]
  unfold out1_5
  rw [View.canon_unit_zero off3]
  simp only [View.ld_unit_zero (S := S8x64x1792) off3, View.ld_unit_zero (S := S8x64) off2, View.ld_unit_zero (S := S64) off1]
  obtain ⟨e0, e1, e2, e3, e4, e5, e6, e7, e8, e9, e10, e11⟩ := block_places t
  funext j
  obtain ⟨p, q, r, rfl⟩ : ∃ (p : Fin 8) (q : Fin 64) (r : Fin 1792), j = ix3 p q r := ⟨j 0, j 1, j 2, eq_ix3 j⟩
  refine (stored_at (iblk1 V c 0 t) (iblk1 V c 1 t) (iblk1 V c 2 t) (iblk1 V c 3 t) (iblk1 V c 4 t) p q r).trans ?_
  have h0 : ((cfg1.win 0).blk t).view.emb (ix3 p q r) = ((cfg1.win 5).blk t).view.emb (ix3 p q r) := by
    funext a; apply Fin.ext
    match a with
    | ⟨0, _⟩ => show win1_0.index t (0 : Fin 3) * 8 + 1 * p.val = win1_5.index t (0 : Fin 3) * 8 + 1 * p.val; omega
    | ⟨1, _⟩ => show win1_0.index t (1 : Fin 3) * 64 + 1 * q.val = win1_5.index t (1 : Fin 3) * 64 + 1 * q.val; omega
    | ⟨2, _⟩ => show win1_0.index t (2 : Fin 3) * 1792 + 1 * r.val = win1_5.index t (2 : Fin 3) * 1792 + 1 * r.val; omega
  have h1 : ((cfg1.win 1).blk t).view.emb (ix2 p q)
      = ix2 ((((cfg1.win 5).blk t).view.emb (ix3 p q r)) 0 : Fin 64) ((((cfg1.win 5).blk t).view.emb (ix3 p q r)) 1 : Fin 64) := by
    funext a; apply Fin.ext
    match a with
    | ⟨0, _⟩ => show win1_1.index t (0 : Fin 2) * 8 + 1 * p.val = win1_5.index t (0 : Fin 3) * 8 + 1 * p.val; omega
    | ⟨1, _⟩ => show win1_1.index t (1 : Fin 2) * 64 + 1 * q.val = win1_5.index t (1 : Fin 3) * 64 + 1 * q.val; omega
  have h2 : ((cfg1.win 2).blk t).view.emb (ix2 p q)
      = ix2 ((((cfg1.win 5).blk t).view.emb (ix3 p q r)) 0 : Fin 64) ((((cfg1.win 5).blk t).view.emb (ix3 p q r)) 1 : Fin 64) := by
    funext a; apply Fin.ext
    match a with
    | ⟨0, _⟩ => show win1_2.index t (0 : Fin 2) * 8 + 1 * p.val = win1_5.index t (0 : Fin 3) * 8 + 1 * p.val; omega
    | ⟨1, _⟩ => show win1_2.index t (1 : Fin 2) * 64 + 1 * q.val = win1_5.index t (1 : Fin 3) * 64 + 1 * q.val; omega
  have h3 : ((cfg1.win 3).blk t).view.emb (ix1 q) = ix1 ((((cfg1.win 5).blk t).view.emb (ix3 p q r)) 1 : Fin 64) := by
    funext a; apply Fin.ext
    match a with
    | ⟨0, _⟩ => show win1_3.index t (0 : Fin 1) * 64 + 1 * q.val = win1_5.index t (1 : Fin 3) * 64 + 1 * q.val; omega
  have h4 : ((cfg1.win 4).blk t).view.emb (ix1 q) = ix1 ((((cfg1.win 5).blk t).view.emb (ix3 p q r)) 1 : Fin 64) := by
    funext a; apply Fin.ext
    match a with
    | ⟨0, _⟩ => show win1_4.index t (0 : Fin 1) * 64 + 1 * q.val = win1_5.index t (1 : Fin 3) * 64 + 1 * q.val; omega
  show point (V c main_v0 (((cfg1.win 0).blk t).view.emb (ix3 p q r))) (V c main_v42 (((cfg1.win 1).blk t).view.emb (ix2 p q)))
      (V c main_v56 (((cfg1.win 2).blk t).view.emb (ix2 p q))) (V c main_arg3 (((cfg1.win 3).blk t).view.emb (ix1 q)))
      (V c main_arg4 (((cfg1.win 4).blk t).view.emb (ix1 q)))
    = whole (V c main_v0) (V c main_v42) (V c main_v56) (V c main_arg3) (V c main_arg4) (((cfg1.win 5).blk t).view.emb (ix3 p q r))
  rw [h0, h1, h2, h3, h4]
  rfl

/-- An index of the output lies in point `t`'s block iff each coordinate lies in the block's range on its axis. -/
theorem mem_block (t : Fin cfg1.N) (i : S64x64x12544.Idx) :
    i ∈ ((cfg1.win 5).blk t).view.set ↔ ∀ a : Fin 3, win1_5.index t a * S8x64x1792.size a ≤ (i a).val
      ∧ (i a).val < win1_5.index t a * S8x64x1792.size a + S8x64x1792.size a := by
  show i ∈ ((View.whole main_v57).slice (win1_5.rect t)).set ↔ _
  rw [View.set_slice_whole, Rect.mem_set_unit]
  exact Iff.rfl

/-- Every index is in the block of the point 7·(sample / 8) + position / 1792. -/
theorem covered (i : S64x64x12544.Idx) :
    ∃ t : Fin cfg1.N, (cfg1.win 5).flush t = true ∧ i ∈ ((cfg1.win 5).blk t).view.set := by
  have hN : cfg1.N = 56 := N_1
  have hi0 : (i 0).val < 64 := (i 0).isLt
  have hi1 : (i 1).val < 64 := (i 1).isLt
  have hi2 : (i 2).val < 12544 := (i 2).isLt
  refine ⟨⟨7 * ((i 0).val / 8) + (i 2).val / 1792, by omega⟩, flush1_5 _, ?_⟩
  rw [mem_block]
  obtain ⟨-, -, -, -, -, -, -, -, -, e9, e10, e11⟩ := block_places ⟨7 * ((i 0).val / 8) + (i 2).val / 1792, by omega⟩
  dsimp only at e10 e11
  intro a
  match a with
  | ⟨0, _⟩ =>
    show win1_5.index _ (0 : Fin 3) * 8 ≤ (i 0).val ∧ (i 0).val < win1_5.index _ (0 : Fin 3) * 8 + 8
    rw [e10]; omega
  | ⟨1, _⟩ =>
    show win1_5.index _ (1 : Fin 3) * 64 ≤ (i 1).val ∧ (i 1).val < win1_5.index _ (1 : Fin 3) * 64 + 64
    rw [e9]; omega
  | ⟨2, _⟩ =>
    show win1_5.index _ (2 : Fin 3) * 1792 ≤ (i 2).val ∧ (i 2).val < win1_5.index _ (2 : Fin 3) * 1792 + 1792
    rw [e11]; omega

/-- The output array after the launch. -/
theorem output_eq (c : Dev nD) :
    (dat1 V c).arrAt 5 cfg1.N = whole (V c main_v0) (V c main_v42) (V c main_v56) (V c main_arg3) (V c main_arg4) :=
  (dat1 V c).arrAt_eq_of_cover 5 _ (fun t _ => flushed_eq V c t) covered

end Cert.KernelIdeal.Norm

end
-- ==== Proof.LibGridFold.lean ====
/-
  A quantity carried across the points of a grid that is RESET at every multiple of `J` to `z + B` of that
  point and INCREMENTED by `B` of the point at every other one is, at the last point of a run of `J`, `z` plus
  the sum of the run's `J` increments.  (The two laws are what an accumulator zeroed under "first step along
  the reduction axis" and added to at every step satisfies; the conclusion is the block it writes back.)
-/
import Idealize.ShloMosaic.Lib.Pipeline.Value

noncomputable section

namespace GridFold

open Idealize.ShloMosaic

theorem at_run_end {ι β : Type*} [AddCommMonoid β] {N : Nat} (J : Nat) (hJ : 0 < J)
    (f : (n : Nat) → n < N → ι → β) (z : ι → β) (B : (n : Nat) → n < N → ι → β)
    (h0 : ∀ (n : Nat) (h : n < N), n % J = 0 → f n h = fun i => z i + B n h i)
    (hs : ∀ (n : Nat) (h : n + 1 < N), ¬(n + 1) % J = 0 →
      f (n + 1) h = fun i => f n (Nat.lt_of_succ_lt h) i + B (n + 1) h i)
    (t : Nat) (ht : t < N) (hlast : t % J = J - 1) (hb : ∀ s : Fin J, J * (t / J) + s.val < N) (i : ι) :
    f t ht i = z i + ∑ s : Fin J, B (J * (t / J) + s.val) (hb s) i := by
  have hmod : J * (t / J) + t % J < N := by rw [Nat.div_add_mod]; exact ht
  rw [Pipeline.eq_accAt_of_mod f J (fun n h i => z i + B n h i) (fun n h acc i => acc i + B n h i) h0 hs hJ t ht hmod]
  rw [Pipeline.accAt_add_apply (fun n h i => z i + B n h i) (fun n h acc i => acc i + B n h i) z
    (fun n i => if h : n < N then B n h i else 0) (J * (t / J)) (J - 1)
    (fun h i => by simp only [dif_pos h]) (fun n h acc i _ _ => by simp only [dif_pos h]) (t % J) (by omega) hmod i]
  rw [hlast, Nat.sub_add_cancel hJ, Finset.sum_range]
  refine congrArg _ (Finset.sum_congr rfl fun s _ => ?_)
  rw [dif_pos (hb s)]

end GridFold

end
-- ==== Proof.SumPieces.lean ====
/-
  The first launch's two output arrays: the per-(sample, channel) sums of `x` and of `x·x` over the flattened
  spatial axis.

  The grid is 8 × 7: point t reads the [8, 64, 1792] block of samples 8·(t / 7) … and positions 1792·(t % 7) …; both
  [8, 64] output blocks are indexed by t / 7 alone, so they stay in their staging buffers across the seven points
  of a run and are written back after its last point.  At the first point of a run the body stores zeros and
  then adds the block's lane sums to them; at the other six it adds the block's lane sums to what the point
  before left.  So the block written back is zero plus the seven lane sums of the run, and the 8 runs' blocks
  tile the [64, 64] arrays: entry (b, ch) ends at the sum over all 12544 positions, taken as 7 runs of 1792.
-/
import proofs.«167167_j38560216383790_2_alg».proof.Proof.Gen.KernelIdeal.Frame
import proofs.«167167_j38560216383790_2_alg».proof.Proof.LibGridFold
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Sums

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

section Pieces

variable {F : FTy → Type} [FloatOps F]

theorem off3 : (![0, 0, 0] : Fin 3 → Nat) = fun _ => 0 := funext fun a => by fin_cases a <;> rfl
theorem off2 : (![0, 0] : Fin 2 → Nat) = fun _ => 0 := funext fun a => by fin_cases a <;> rfl

/-- The zero block the first point of a run stores. -/
abbrev zero : Vec F S8x64 .f32 := broadcast S8x64 (Scalar.ofBits .f32 0x00000000#32)

/-- A block's sums along its last axis. -/
abbrev laneSum (x : Vec F S8x64x1792 .f32) : FVec F S8x64 .f32 :=
  multiReduction .add [2] S8x64 x 0x00000000#32 reduces_S8x64x1792_S8x64 (.inl rfl) rfl

/-- A later point of a run leaves, in the first output's buffer holding `acc`, `acc` plus the block's lane sums. -/
theorem later_sum (c : Dev nD) (i : grid0.Coords) (a2 : Memref sig .tc .vmem S8x64x1792 .f32) (h2 : a2.IsWhole)
    (a3 : Memref sig .tc .vmem S8x64 .f32) (h3 : a3.IsWhole) (a4 : Memref sig .tc .vmem S8x64 .f32) (h4 : a4.IsWhole)
    (hc : ¬cond0_0 i) (x : Vec F S8x64x1792 .f32) (acc1 acc2 : Vec F S8x64 .f32) :
    out0_B_1 c i a2 h2 a3 h3 a4 h4 hc x acc1 acc2 = addf acc1 (laneSum x) := by
  unfold out0_B_1
  rw [View.read_writes_eq_canon _ _ _ (cover0_B_1 c i a2 h2 a3 h3 a4 h4 hc x acc1 acc2)]
  unfold kernelRun0_B
  dsimp only
  rw [View.canon_unit_zero off2]
  unfold k0_pay4 k0_pay3
  simp only [View.readAt_eq_ld, h2.read_unread, h3.read_unread, View.ld_unit_zero (S := S8x64) off2,
    View.ld_unit_zero (S := S8x64x1792) off3, shapeCast_self]

/-- … and in the second output's buffer, `acc` plus the lane sums of the block's squares. -/
theorem later_sumsq (c : Dev nD) (i : grid0.Coords) (a2 : Memref sig .tc .vmem S8x64x1792 .f32) (h2 : a2.IsWhole)
    (a3 : Memref sig .tc .vmem S8x64 .f32) (h3 : a3.IsWhole) (a4 : Memref sig .tc .vmem S8x64 .f32) (h4 : a4.IsWhole)
    (hc : ¬cond0_0 i) (x : Vec F S8x64x1792 .f32) (acc1 acc2 : Vec F S8x64 .f32) :
    out0_B_2 c i a2 h2 a3 h3 a4 h4 hc x acc1 acc2 = addf acc2 (laneSum (mulf x x)) := by
  unfold out0_B_2
  rw [View.read_writes_eq_canon _ _ _ (cover0_B_2 c i a2 h2 a3 h3 a4 h4 hc x acc1 acc2)]
  unfold kernelRun0_B
  dsimp only
  rw [View.canon_unit_zero off2]
  unfold k0_pay5 k0_pay3
  simp only [View.readAt_eq_ld, h2.read_unread, h4.read_unread, View.ld_unit_zero (S := S8x64) off2,
    View.ld_unit_zero (S := S8x64x1792) off3, shapeCast_self]

/-- The first point of a run stores zeros, reads them back, and leaves zero plus the block's lane sums. -/
theorem first_sum (c : Dev nD) (i : grid0.Coords) (a2 : Memref sig .tc .vmem S8x64x1792 .f32) (h2 : a2.IsWhole)
    (a3 : Memref sig .tc .vmem S8x64 .f32) (h3 : a3.IsWhole) (a4 : Memref sig .tc .vmem S8x64 .f32) (h4 : a4.IsWhole)
    (hc : cond0_0 i) (x : Vec F S8x64x1792 .f32) :
    out0_A_1 c i a2 h2 a3 h3 a4 h4 hc x = addf zero (laneSum x) := by
  unfold out0_A_1
  rw [View.read_writes_eq_canon _ _ _ (cover0_A_1 c i a2 h2 a3 h3 a4 h4 hc x)]
  unfold kernelRun0_A
  dsimp only
  sl_unfold_words
  rw [View.canon_cons_unit_zero (S := S8x64) off2, View.readCov_unit_zero (S := S8x64) _ off2]
  unfold k0_pay4 k0_pay3 k0_pay1
  simp only [View.readAt_eq_ld, h2.read_unread, View.ld_unit_zero (S := S8x64x1792) off3, shapeCast_self]

theorem first_sumsq (c : Dev nD) (i : grid0.Coords) (a2 : Memref sig .tc .vmem S8x64x1792 .f32) (h2 : a2.IsWhole)
    (a3 : Memref sig .tc .vmem S8x64 .f32) (h3 : a3.IsWhole) (a4 : Memref sig .tc .vmem S8x64 .f32) (h4 : a4.IsWhole)
    (hc : cond0_0 i) (x : Vec F S8x64x1792 .f32) :
    out0_A_2 c i a2 h2 a3 h3 a4 h4 hc x = addf zero (laneSum (mulf x x)) := by
  unfold out0_A_2
  rw [View.read_writes_eq_canon _ _ _ (cover0_A_2 c i a2 h2 a3 h3 a4 h4 hc x)]
  unfold kernelRun0_A
  dsimp only
  sl_unfold_words
  rw [View.canon_cons_unit_zero (S := S8x64) off2, View.readCov_unit_zero (S := S8x64) _ off2]
  unfold k0_pay5 k0_pay3 k0_pay2
  simp only [View.readAt_eq_ld, h2.read_unread, View.ld_unit_zero (S := S8x64x1792) off3, shapeCast_self]

variable (V : (c : Dev nD) → (b : Ref sig .tc) → Buf (Elt F) ((c : Thread nD τ).loc b))

/-- The two laws of the carried sums: reset at the first point of a run, incremented at the others. -/
theorem sum_reset (c : Dev nD) (n : Nat) (h : n < cfg0.N) (h0 : n % 7 = 0) :
    (outsAt0 V c n h).1 = addf zero (laneSum (iblk0 V c 0 ⟨n, h⟩)) :=
  (congrArg Prod.fst (outsAt0_A V c ⟨n, h⟩ h0)).trans
    (first_sum c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk0 V c 0 ⟨n, h⟩))

theorem sumsq_reset (c : Dev nD) (n : Nat) (h : n < cfg0.N) (h0 : n % 7 = 0) :
    (outsAt0 V c n h).2 = addf zero (laneSum (mulf (iblk0 V c 0 ⟨n, h⟩) (iblk0 V c 0 ⟨n, h⟩))) :=
  (congrArg Prod.snd (outsAt0_A V c ⟨n, h⟩ h0)).trans
    (first_sumsq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk0 V c 0 ⟨n, h⟩))

theorem sum_step (c : Dev nD) (n : Nat) (h : n + 1 < cfg0.N) (hB : ¬(n + 1) % 7 = 0) :
    (outsAt0 V c (n + 1) h).1 = addf (outsAt0 V c n (Nat.lt_of_succ_lt h)).1 (laneSum (iblk0 V c 0 ⟨n + 1, h⟩)) :=
  (congrArg Prod.fst (outsAt0_B V c ⟨n + 1, h⟩ hB)).trans
    (later_sum c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2)

theorem sumsq_step (c : Dev nD) (n : Nat) (h : n + 1 < cfg0.N) (hB : ¬(n + 1) % 7 = 0) :
    (outsAt0 V c (n + 1) h).2
      = addf (outsAt0 V c n (Nat.lt_of_succ_lt h)).2 (laneSum (mulf (iblk0 V c 0 ⟨n + 1, h⟩) (iblk0 V c 0 ⟨n + 1, h⟩))) :=
  (congrArg Prod.snd (outsAt0_B V c ⟨n + 1, h⟩ hB)).trans
    (later_sumsq c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2)

end Pieces

end Cert.KernelIdeal.Sums

end
-- ==== Proof.Sums.lean ====
/-
  The first launch's output arrays at the exact reals-with-infinities reading: entry (b, ch) of the first is the sum
  of row (b, ch) of the reshaped `x` over its 12544 positions, of the second the sum of the squares — each
  written as 7 runs of 1792 positions, the order the grid visits them in.
-/
import proofs.«167167_j38560216383790_2_alg».proof.Proof.SumPieces

set_option maxRecDepth 16384

noncomputable section

namespace Cert.KernelIdeal.Sums

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Position 1792·s + l of the flattened axis: place l of run s. -/
abbrev place (s : Fin 7) (l : Fin 1792) : Fin 12544 := ⟨1792 * s.val + l.val, by have := s.isLt; have := l.isLt; omega⟩

/-- Row (b, ch) of a [64, 64, 12544] array summed over its positions, run by run. -/
def rowSum (f : S64x64x12544.Idx → EReal) : S64x64.Idx → EReal :=
  fun j => ∑ s : Fin 7, ∑ l : Fin 1792, f (ix3 (j 0 : Fin 64) (j 1 : Fin 64) (place s l))

/-- The elementwise square of an array. -/
def sq (f : S64x64x12544.Idx → EReal) : S64x64x12544.Idx → EReal := fun i => f i * f i

/-- A block's lane sum at (p, q) is the sum of its row (p, q). -/
theorem laneSum_at (x : Vec Ideal S8x64x1792 .f32) (p : Fin 8) (q : Fin 64) :
    laneSum x (ix2 p q) = ∑ l : Fin 1792, x (ix3 p q l) := by
  refine (Ideal.multiReduction_add_single x 0x00000000#32 reduces_S8x64x1792_S8x64 (.inl rfl) rfl (ix2 p q)).trans ?_
  refine Finset.sum_congr rfl fun l _ => congrArg x ?_
  funext d; apply Fin.ext
  match d with
  | ⟨0, _⟩ => rfl
  | ⟨1, _⟩ => rfl
  | ⟨2, _⟩ => rfl

/-- Where the blocks sit at point `t`, decided over the grid: the `x` block is (t / 7, 0, t % 7), both output
    blocks are (t / 7, 0). -/
theorem block_places : ∀ t : Fin cfg0.N,
    win0_0.index t (0 : Fin 3) = t.val / 7 ∧ win0_0.index t (1 : Fin 3) = 0 ∧ win0_0.index t (2 : Fin 3) = t.val % 7
    ∧ win0_1.index t (0 : Fin 2) = t.val / 7 ∧ win0_1.index t (1 : Fin 2) = 0
    ∧ win0_2.index t (0 : Fin 2) = t.val / 7 ∧ win0_2.index t (1 : Fin 2) = 0 :=
  (by decide +kernel : ∀ t : Fin grid0.N, _)

/-- Entry (p, q, l) of point `t`'s block of `x` is the array's entry (8·(t / 7) + p, q, 1792·(t % 7) + l). -/
theorem block_at (c : Dev nD) (t : Fin cfg0.N) (p : Fin 8) (q : Fin 64) (l : Fin 1792) (i : S64x64x12544.Idx)
    (h0 : (i 0).val = 8 * (t.val / 7) + p.val) (h1 : (i 1).val = q.val) (h2 : (i 2).val = 1792 * (t.val % 7) + l.val) :
    iblk0 V c 0 t (ix3 p q l) = V c main_v0 i := by
  obtain ⟨e0, e1, e2, -, -, -, -⟩ := block_places t
  show V c main_v0 (((cfg0.win 0).blk t).view.emb (ix3 p q l)) = V c main_v0 i
  refine congrArg (V c main_v0) (funext fun a => Fin.ext ?_)
  match a with
  | ⟨0, _⟩ => show win0_0.index t (0 : Fin 3) * 8 + 1 * p.val = (i 0).val; rw [e0, h0]; omega
  | ⟨1, _⟩ => show win0_0.index t (1 : Fin 3) * 64 + 1 * q.val = (i 1).val; rw [e1, h1]; omega
  | ⟨2, _⟩ => show win0_0.index t (2 : Fin 3) * 1792 + 1 * l.val = (i 2).val; rw [e2, h2]; omega

/-- After the last point of a run the first output's buffer holds, at (p, q), the whole row's sum. -/
theorem run_sum (c : Dev nD) (t : Fin cfg0.N) (h6 : t.val % 7 = 6) (p : Fin 8) (q : Fin 64) (j : S64x64.Idx)
    (hj0 : (j 0).val = 8 * (t.val / 7) + p.val) (hj1 : (j 1).val = q.val) :
    (outsAt0 V c t.val t.isLt).1 (ix2 p q) = rowSum (V c main_v0) j := by
  have hN : cfg0.N = 56 := N_0
  have ht : t.val < 56 := lt_of_lt_of_eq t.isLt hN
  have hb : ∀ s : Fin 7, 7 * (t.val / 7) + s.val < cfg0.N := fun s => by have := s.isLt; omega
  refine (GridFold.at_run_end 7 (by decide) (fun n h => (outsAt0 V c n h).1) zero (fun n h => laneSum (iblk0 V c 0 ⟨n, h⟩))
    (fun n h h0 => sum_reset V c n h h0) (fun n h hB => sum_step V c n h hB) t.val t.isLt h6 hb (ix2 p q)).trans ?_
  show (Ideal.ofBits .f32 0x00000000#32 : EReal) + _ = _
  rw [Ideal.ofBits_zero_f32, zero_add]
  unfold rowSum
  refine Finset.sum_congr rfl fun s _ => ?_
  refine (laneSum_at _ p q).trans (Finset.sum_congr rfl fun l _ => ?_)
  refine block_at V c ⟨7 * (t.val / 7) + s.val, hb s⟩ p q l _ ?_ ?_ ?_
  · show (j 0).val = 8 * ((7 * (t.val / 7) + s.val) / 7) + p.val
    have := s.isLt; omega
  · exact hj1
  · show 1792 * s.val + l.val = 1792 * ((7 * (t.val / 7) + s.val) % 7) + l.val
    have := s.isLt; omega

/-- … and the second output's buffer the whole row's sum of squares. -/
theorem run_sumsq (c : Dev nD) (t : Fin cfg0.N) (h6 : t.val % 7 = 6) (p : Fin 8) (q : Fin 64) (j : S64x64.Idx)
    (hj0 : (j 0).val = 8 * (t.val / 7) + p.val) (hj1 : (j 1).val = q.val) :
    (outsAt0 V c t.val t.isLt).2 (ix2 p q) = rowSum (sq (V c main_v0)) j := by
  have hN : cfg0.N = 56 := N_0
  have ht : t.val < 56 := lt_of_lt_of_eq t.isLt hN
  have hb : ∀ s : Fin 7, 7 * (t.val / 7) + s.val < cfg0.N := fun s => by have := s.isLt; omega
  refine (GridFold.at_run_end 7 (by decide) (fun n h => (outsAt0 V c n h).2) zero
    (fun n h => (laneSum (F := Ideal) (mulf (F := Ideal) (s := S8x64x1792) (φ := .f32) (iblk0 V c 0 ⟨n, h⟩) (iblk0 V c 0 ⟨n, h⟩)) : S8x64.Idx → EReal))
    (fun n h h0 => sumsq_reset V c n h h0) (fun n h hB => sumsq_step V c n h hB) t.val t.isLt h6 hb (ix2 p q)).trans ?_
  show (Ideal.ofBits .f32 0x00000000#32 : EReal) + _ = _
  rw [Ideal.ofBits_zero_f32, zero_add]
  unfold rowSum
  refine Finset.sum_congr rfl fun s _ => ?_
  refine (laneSum_at _ p q).trans (Finset.sum_congr rfl fun l _ => ?_)
  have e := block_at V c ⟨7 * (t.val / 7) + s.val, hb s⟩ p q l (ix3 (j 0 : Fin 64) (j 1 : Fin 64) (place s l))
    (by show (j 0).val = 8 * ((7 * (t.val / 7) + s.val) / 7) + p.val
        have := s.isLt; omega)
    hj1
    (by show 1792 * s.val + l.val = 1792 * ((7 * (t.val / 7) + s.val) % 7) + l.val
        have := s.isLt; omega)
  exact congrArg (fun z : EReal => z * z) e

/-- What the last point of a run writes back is the run's block of the row sums. -/
theorem flushed_sum (c : Dev nD) (t : Fin cfg0.N) (hf : (cfg0.win 1).flush t = true) :
    (dat0 V c).flushed 1 t = ((cfg0.win 1).blk t).view.read (Elt Ideal) (rowSum (V c main_v0)) := by
  have h6 : t.val % 7 = 6 := (flush0_1 t).mp hf
  obtain ⟨-, -, -, e3, e4, -, -⟩ := block_places t
  show (cfg0.win 1).cut (grid0.coords t) ((dat0 V c).after 1 t) = _
  rw [after0_1]
  funext y
  obtain ⟨p, q, rfl⟩ : ∃ (p : Fin 8) (q : Fin 64), y = ix2 p q := ⟨y 0, y 1, eq_ix2 y⟩
  show (outsAt0 V c t.val t.isLt).1 (ix2 p q) = rowSum (V c main_v0) (((cfg0.win 1).blk t).view.emb (ix2 p q))
  refine run_sum V c t h6 p q _ ?_ ?_
  · show win0_1.index t (0 : Fin 2) * 8 + 1 * p.val = 8 * (t.val / 7) + p.val
    rw [e3]; omega
  · show win0_1.index t (1 : Fin 2) * 64 + 1 * q.val = q.val
    rw [e4]; omega

theorem flushed_sumsq (c : Dev nD) (t : Fin cfg0.N) (hf : (cfg0.win 2).flush t = true) :
    (dat0 V c).flushed 2 t
      = ((cfg0.win 2).blk t).view.read (Elt Ideal) (rowSum (sq (V c main_v0))) := by
  have h6 : t.val % 7 = 6 := (flush0_2 t).mp hf
  obtain ⟨-, -, -, -, -, e5, e6⟩ := block_places t
  show (cfg0.win 2).cut (grid0.coords t) ((dat0 V c).after 2 t) = _
  rw [after0_2]
  funext y
  obtain ⟨p, q, rfl⟩ : ∃ (p : Fin 8) (q : Fin 64), y = ix2 p q := ⟨y 0, y 1, eq_ix2 y⟩
  show (outsAt0 V c t.val t.isLt).2 (ix2 p q)
    = rowSum (sq (V c main_v0)) (((cfg0.win 2).blk t).view.emb (ix2 p q))
  refine run_sumsq V c t h6 p q _ ?_ ?_
  · show win0_2.index t (0 : Fin 2) * 8 + 1 * p.val = 8 * (t.val / 7) + p.val
    rw [e5]; omega
  · show win0_2.index t (1 : Fin 2) * 64 + 1 * q.val = q.val
    rw [e6]; omega

/-- An entry of an output lies in point `t`'s block iff each coordinate lies in the block's range on its axis. -/
theorem mem_block_sum (t : Fin cfg0.N) (i : S64x64.Idx) :
    i ∈ ((cfg0.win 1).blk t).view.set ↔ ∀ a : Fin 2, win0_1.index t a * S8x64.size a ≤ (i a).val
      ∧ (i a).val < win0_1.index t a * S8x64.size a + S8x64.size a := by
  show i ∈ ((View.whole main_v1_0).slice (win0_1.rect t)).set ↔ _
  rw [View.set_slice_whole, Rect.mem_set_unit]
  exact Iff.rfl

theorem mem_block_sumsq (t : Fin cfg0.N) (i : S64x64.Idx) :
    i ∈ ((cfg0.win 2).blk t).view.set ↔ ∀ a : Fin 2, win0_2.index t a * S8x64.size a ≤ (i a).val
      ∧ (i a).val < win0_2.index t a * S8x64.size a + S8x64.size a := by
  show i ∈ ((View.whole main_v1_1).slice (win0_2.rect t)).set ↔ _
  rw [View.set_slice_whole, Rect.mem_set_unit]
  exact Iff.rfl

/-- Every entry of the first output lies in the block the last point of its sample's run writes back. -/
theorem covered_sum (i : S64x64.Idx) :
    ∃ t : Fin cfg0.N, (cfg0.win 1).flush t = true ∧ i ∈ ((cfg0.win 1).blk t).view.set := by
  have hN : cfg0.N = 56 := N_0
  have hi0 : (i 0).val < 64 := (i 0).isLt
  have hi1 : (i 1).val < 64 := (i 1).isLt
  refine ⟨⟨7 * ((i 0).val / 8) + 6, by omega⟩, (flush0_1 _).mpr (by show (7 * ((i 0).val / 8) + 6) % 7 = 6; omega), ?_⟩
  obtain ⟨-, -, -, e3, e4, -, -⟩ := block_places ⟨7 * ((i 0).val / 8) + 6, by omega⟩
  dsimp only at e3
  rw [mem_block_sum]
  intro a
  match a with
  | ⟨0, _⟩ =>
    show win0_1.index _ (0 : Fin 2) * 8 ≤ (i 0).val ∧ (i 0).val < win0_1.index _ (0 : Fin 2) * 8 + 8
    rw [e3]; omega
  | ⟨1, _⟩ =>
    show win0_1.index _ (1 : Fin 2) * 64 ≤ (i 1).val ∧ (i 1).val < win0_1.index _ (1 : Fin 2) * 64 + 64
    rw [e4]; omega

theorem covered_sumsq (i : S64x64.Idx) :
    ∃ t : Fin cfg0.N, (cfg0.win 2).flush t = true ∧ i ∈ ((cfg0.win 2).blk t).view.set := by
  have hN : cfg0.N = 56 := N_0
  have hi0 : (i 0).val < 64 := (i 0).isLt
  have hi1 : (i 1).val < 64 := (i 1).isLt
  refine ⟨⟨7 * ((i 0).val / 8) + 6, by omega⟩, (flush0_2 _).mpr (by show (7 * ((i 0).val / 8) + 6) % 7 = 6; omega), ?_⟩
  obtain ⟨-, -, -, -, -, e5, e6⟩ := block_places ⟨7 * ((i 0).val / 8) + 6, by omega⟩
  dsimp only at e5
  rw [mem_block_sumsq]
  intro a
  match a with
  | ⟨0, _⟩ =>
    show win0_2.index _ (0 : Fin 2) * 8 ≤ (i 0).val ∧ (i 0).val < win0_2.index _ (0 : Fin 2) * 8 + 8
    rw [e5]; omega
  | ⟨1, _⟩ =>
    show win0_2.index _ (1 : Fin 2) * 64 ≤ (i 1).val ∧ (i 1).val < win0_2.index _ (1 : Fin 2) * 64 + 64
    rw [e6]; omega

/-- The two output arrays after the launch. -/
theorem sums_eq (c : Dev nD) : (dat0 V c).arrAt 1 cfg0.N = rowSum (V c main_v0) :=
  (dat0 V c).arrAt_eq_of_cover 1 _ (flushed_sum V c) covered_sum

theorem sumsq_eq (c : Dev nD) : (dat0 V c).arrAt 2 cfg0.N = rowSum (sq (V c main_v0)) :=
  (dat0 V c).arrAt_eq_of_cover 2 _ (flushed_sumsq V c) covered_sumsq

end Cert.KernelIdeal.Sums

end
-- ==== Proof.Spec.lean ====
/-
  The result of the whole computation as one function of the six argument arrays, in the arrangement the kernel
  program computes it: `x` flattened to [64, 64, 12544]; its row sums and row sums of squares; the blended
  statistics from them; each element normalized, scaled and shifted; the result un-flattened.
-/
import proofs.«167167_j38560216383790_2_alg».proof.Proof.Normalize
import proofs.«167167_j38560216383790_2_alg».proof.Proof.Sums
import proofs.«167167_j38560216383790_2_alg».proof.Proof.Glue

noncomputable section

namespace Cert.KernelIdeal.Spec

open Idealize.ShloMosaic
open Cert.KernelIdeal Cert.KernelIdeal.Gen

/-- `x` with its two spatial axes flattened. -/
def flat (x : S64x64x112x112.Idx → EReal) : S64x64x12544.Idx → EReal :=
  shapeCast S64x64x12544 x shapeCasts_S64x64x112x112_S64x64x12544

/-- The normalized, scaled and shifted array on the flattened layout. -/
def onFlat (x : S64x64x112x112.Idx → EReal) (rm rv w b : S64.Idx → EReal) (lab : S64.Idx → BitVec 32) :
    S64x64x12544.Idx → EReal :=
  Norm.whole (F := Ideal) (flat x) (Glue.mean (F := Ideal) (Sums.rowSum (flat x)) lab rm)
    (Glue.var (F := Ideal) (Sums.rowSum (flat x)) (Sums.rowSum (Sums.sq (flat x))) lab rv) w b

/-- The result. -/
def result (x : S64x64x112x112.Idx → EReal) (rm rv w b : S64.Idx → EReal) (lab : S64.Idx → BitVec 32) :
    S64x64x112x112.Idx → EReal :=
  shapeCast S64x64x112x112 (onFlat x rm rv w b lab) shapeCasts_S64x64x12544_S64x64x112x112

end Cert.KernelIdeal.Spec

end
-- ==== Proof.KernelResult.lean ====
/-
  The idealized kernel program's result buffer after the run is `Spec.result` of the arguments as launched:
  the boundary contents chained — the un-flattening of the second launch's output; that output as the
  normalized array of what the launch is entered with; the entry contents as the host arithmetic of the first
  launch's outputs; those as the row sums of `x` flattened.
-/
import proofs.«167167_j38560216383790_2_alg».proof.Proof.KernelRun
import proofs.«167167_j38560216383790_2_alg».proof.Proof.GlueRun
import proofs.«167167_j38560216383790_2_alg».proof.Proof.Spec

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem result_buffer (c : Dev nD) :
    W5 m ρ c (Proc.devRef .tc main_v58)
      = Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have ex : V3 m ρ c main_v0 = Spec.flat (m ((c : Thread nD τ).loc main_arg0)) :=
    (Between.entry1_x m ρ c).trans ((Between.exit0_x m ρ c).trans (Between.entry0_x m ρ c))
  have e1 : W2 m ρ c (Proc.devRef .tc main_arg1) = m ((c : Thread nD τ).loc main_arg1) :=
    Between.exit0_arg m ρ c main_arg1 (by decide) (by decide)
  have e2 : W2 m ρ c (Proc.devRef .tc main_arg2) = m ((c : Thread nD τ).loc main_arg2) :=
    Between.exit0_arg m ρ c main_arg2 (by decide) (by decide)
  have e3 : W2 m ρ c (Proc.devRef .tc main_arg3) = m ((c : Thread nD τ).loc main_arg3) :=
    Between.exit0_arg m ρ c main_arg3 (by decide) (by decide)
  have e4 : W2 m ρ c (Proc.devRef .tc main_arg4) = m ((c : Thread nD τ).loc main_arg4) :=
    Between.exit0_arg m ρ c main_arg4 (by decide) (by decide)
  have e5 : W2 m ρ c (Proc.devRef .tc main_arg5) = m ((c : Thread nD τ).loc main_arg5) :=
    Between.exit0_arg m ρ c main_arg5 (by decide) (by decide)
  have es : W2 m ρ c (Proc.devRef .tc main_v1_0) = Sums.rowSum (Spec.flat (m ((c : Thread nD τ).loc main_arg0))) :=
    (W2_arr m ρ c 1).trans ((Sums.sums_eq (V1 m ρ) c).trans (congrArg Sums.rowSum (Between.entry0_x m ρ c)))
  have ess : W2 m ρ c (Proc.devRef .tc main_v1_1) = Sums.rowSum (Sums.sq (Spec.flat (m ((c : Thread nD τ).loc main_arg0)))) :=
    (W2_arr m ρ c 2).trans ((Sums.sumsq_eq (V1 m ρ) c).trans (congrArg (fun f => Sums.rowSum (Sums.sq f)) (Between.entry0_x m ρ c)))
  rw [Between.result_eq, Norm.output_eq, ex, Between.entry1_mean, Between.entry1_var, Between.entry1_weight, Between.entry1_bias,
    es, ess, e1, e2, e3, e4, e5]
  rfl

/-- The run with the result stated: the result buffer at `Spec.result` of the arguments, the arguments unchanged. -/
theorem run : θ_run defs (onTc (τ := τ) (main (F := Ideal))) ⟨m, fun _ => 0, ρ⟩ (fun r => ∀ c : Dev nD,
      r.2.mem ((c.tc : Thread nD τ).loc main_v58)
        = Spec.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_buffer m ρ c), (h c).2⟩) (run_result m ρ)

end Cert.KernelIdeal.Whole

end
-- ==== Proof.RefSide.lean ====
/-
  The reference, read at one element of its [64, 64, 112, 112] result, and its two spatial sums as double sums.

  Element (b, ch, h, w) of the reference's result is
      ((x[b,ch,h,w] - mean[b,ch]) · rsqrt (var[b,ch] + ε)) · weight[ch] + bias[ch],
  where mean and var are the blended statistics — the same host arithmetic the kernel program runs between its
  launches, applied to the reference's own sums over (h, w) of `x` and of `x·x`.  Those sums, which the host
  states as "every element that drops to (b, ch)", are the double sum over h and w.
-/
import proofs.«167167_j38560216383790_2_alg».proof.Proof.Gen.ReferenceIdeal.Read
import proofs.«167167_j38560216383790_2_alg».proof.Proof.Glue
import proofs.«167167_j38560216383790_2_alg».proof.Proof.PayNorm
import Idealize.ShloMosaic.Lib.ValueIdx
import Idealize.ShloMosaic.PureOps.Ideal.Laws

set_option maxRecDepth 16384

noncomputable section

namespace Cert.ReferenceIdeal.Side

open Idealize.ShloMosaic Idealize.ShloMosaic.ValueIdx
open Cert.ReferenceIdeal Cert.ReferenceIdeal.Gen Cert.ReferenceIdeal.Read

section AnyFloat

variable {F : FTy → Type} [FloatOps F]

set_option maxHeartbeats 2000000 in
/-- The reference's blended mean is the shared host arithmetic of its own spatial sums. -/
theorem mean_ref (x0 : (⟨S64x64x112x112, .f32⟩ : BufTy).Contents (Elt F)) (x1 : (⟨S64, .f32⟩ : BufTy).Contents (Elt F))
    (x5 : (⟨S64, .i32⟩ : BufTy).Contents (Elt F)) :
    val_main_v43 (F := F) x0 x1 x5 = Cert.KernelIdeal.Glue.mean (val_main_v0 (F := F) x0) x5 x1 := rfl

set_option maxHeartbeats 2000000 in
/-- The reference's blended variance likewise, of its sums and sums of squares. -/
theorem var_ref (x0 : (⟨S64x64x112x112, .f32⟩ : BufTy).Contents (Elt F)) (x2 : (⟨S64, .f32⟩ : BufTy).Contents (Elt F))
    (x5 : (⟨S64, .i32⟩ : BufTy).Contents (Elt F)) :
    val_main_v57 (F := F) x0 x2 x5 = Cert.KernelIdeal.Glue.var (val_main_v0 (F := F) x0) (val_main_v2 (F := F) x0) x5 x2 := rfl

end AnyFloat

/-- The reference's result at one element. -/
theorem result_at (x0 : (⟨S64x64x112x112, .f32⟩ : BufTy).Contents (Elt Ideal)) (x1 x2 x3 x4 : (⟨S64, .f32⟩ : BufTy).Contents (Elt Ideal))
    (x5 : (⟨S64, .i32⟩ : BufTy).Contents (Elt Ideal)) (i : S64x64x112x112.Idx) :
    val_main_v72 (F := Ideal) x0 x1 x2 x3 x4 x5 i
      = Cert.KernelIdeal.Norm.point (F := Ideal) (x0 i)
          (Cert.KernelIdeal.Glue.mean (val_main_v0 (F := Ideal) x0) x5 x1 (ix2 (i 0 : Fin 64) (i 1 : Fin 64)))
          (Cert.KernelIdeal.Glue.var (val_main_v0 (F := Ideal) x0) (val_main_v2 (F := Ideal) x0) x5 x2 (ix2 (i 0 : Fin 64) (i 1 : Fin 64)))
          (x3 (ix1 (i 1 : Fin 64))) (x4 (ix1 (i 1 : Fin 64))) := by
  have e1 : idx_main_v58 (idx_main_v59 i) = ix2 (i 0 : Fin 64) (i 1 : Fin 64) :=
    funext fun a => match a with | ⟨0, _⟩ => rfl | ⟨1, _⟩ => rfl
  have e2 : idx_main_v64 (idx_main_v65 i) = ix2 (i 0 : Fin 64) (i 1 : Fin 64) :=
    funext fun a => match a with | ⟨0, _⟩ => rfl | ⟨1, _⟩ => rfl
  have e3 : idx_main_v67 (idx_main_v68 i) = ix1 (i 1 : Fin 64) :=
    funext fun a => match a with | ⟨0, _⟩ => rfl
  have e4 : idx_main_v70 (idx_main_v71 i) = ix1 (i 1 : Fin 64) :=
    funext fun a => match a with | ⟨0, _⟩ => rfl
  rw [val_main_v72_apply, val_main_v69_apply, val_main_v66_apply, val_main_v60_apply, val_main_v59_apply, val_main_v58_apply,
    val_main_v65_apply, val_main_v64_apply, val_main_v63_apply, val_main_v62_apply, val_main_v61_apply, val_main_cst_16_apply,
    val_main_v68_apply, val_main_v67_apply, val_main_v71_apply, val_main_v70_apply, e1, e2, e3, e4, mean_ref, var_ref]
  rfl

/-! ## The spatial sums -/

/-- Dropping the two spatial coordinates of (b, ch, h, w) leaves (b, ch). -/
theorem drop_ix4 (a b : Fin 64) (h w : Fin 112) :
    reducesTo_S64x64x112x112_S64x64_d2_3.drop (ix4 a b h w) = ix2 a b := by
  funext d
  match d with
  | ⟨0, _⟩ => rfl
  | ⟨1, _⟩ => rfl

/-- An index that drops to `j` is `j`'s two coordinates followed by its own spatial ones. -/
theorem eq_of_drop (i : S64x64x112x112.Idx) (j : S64x64.Idx) (hd : reducesTo_S64x64x112x112_S64x64_d2_3.drop i = j) :
    i = ix4 (j 0 : Fin 64) (j 1 : Fin 64) (i 2 : Fin 112) (i 3 : Fin 112) := by
  subst hd
  funext a
  match a with
  | ⟨0, _⟩ => rfl
  | ⟨1, _⟩ => rfl
  | ⟨2, _⟩ => rfl
  | ⟨3, _⟩ => rfl

/-- The spatial positions over (b, ch), as an embedding of the pairs (h, w). -/
def over (j : S64x64.Idx) : Fin 112 × Fin 112 ↪ S64x64x112x112.Idx :=
  ⟨fun p => ix4 (j 0 : Fin 64) (j 1 : Fin 64) p.1 p.2, fun p p' e => by
    have h2 := congrFun e 2
    have h3 := congrFun e 3
    exact Prod.ext h2 h3⟩

theorem dropping_to (j : S64x64.Idx) :
    Finset.univ.filter (fun i : S64x64x112x112.Idx => reducesTo_S64x64x112x112_S64x64_d2_3.drop i = j)
      = Finset.univ.map (over j) := by
  ext i
  simp only [Finset.mem_filter, Finset.mem_univ, true_and, Finset.mem_map, over, Function.Embedding.coeFn_mk]
  constructor
  · intro hd
    exact ⟨((i 2 : Fin 112), (i 3 : Fin 112)), (eq_of_drop i j hd).symm⟩
  · rintro ⟨p, rfl⟩
    exact (drop_ix4 (j 0 : Fin 64) (j 1 : Fin 64) p.1 p.2).trans (eq_ix2 j).symm

/-- The reference's sum over both spatial axes at (b, ch), from zero, is the double sum over h and w. -/
theorem spatial_sum (f : S64x64x112x112.Idx → EReal) (j : S64x64.Idx) :
    Host.reduceAdd (F := Ideal) (φ := .f32) f (constant S_ .f32 0x00000000#32) reducesTo_S64x64x112x112_S64x64_d2_3 h_S_ j
      = ∑ h : Fin 112, ∑ w : Fin 112, f (ix4 (j 0 : Fin 64) (j 1 : Fin 64) h w) := by
  show Ideal.hostReduceAdd reducesTo_S64x64x112x112_S64x64_d2_3 f (Ideal.ofBits .f32 0x00000000#32) j = _
  unfold Ideal.hostReduceAdd
  rw [Ideal.ofBits_zero_f32, zero_add, dropping_to, Finset.sum_map, Fintype.sum_prod_type]
  rfl

end Cert.ReferenceIdeal.Side

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.LibFlattenSpatial.lean ====
/-
  Reshaping [a, b, h, w] to [a, b, n] with n = h·w and back, read at an index given by its coordinates: position
  r·w + s of the flattened axis is (r, s) of the two spatial axes, and the two leading coordinates are kept.
  Stated for an arbitrary element type and arbitrary extents.
-/
import Idealize.ShloMosaic.Lib.ValueIdx
import Idealize.ShloMosaic.Lib.Pipeline.Value

noncomputable section

namespace FlattenSpatial

open Idealize.ShloMosaic Idealize.ShloMosaic.ValueIdx

variable {α : Type}

/-- The two row-major positions agree. -/
theorem position_eq {a b h w n : Nat} (hn : n = h * w) (p : Fin a) (q : Fin b) (r : Fin h) (s : Fin w) (L : Fin n)
    (hL : L.val = r.val * w + s.val) :
    ((⟨4, ![a, b, h, w]⟩ : Shape).rowMajor (ix4 p q r s)).val = ((⟨3, ![a, b, n]⟩ : Shape).rowMajor (ix3 p q L)).val := by
  rw [Shape.rowMajor_val_four, Shape.rowMajor_val_three]
  show ((p.val * b + q.val) * h + r.val) * w + s.val = (p.val * b + q.val) * n + L.val
  rw [hL, hn]
  ring

/-- The flattened array at (p, q, r·w + s) is the array at (p, q, r, s). -/
theorem flatten_at {a b h w n : Nat} (hn : n = h * w) (f : (⟨4, ![a, b, h, w]⟩ : Shape).Idx → α)
    (hc : (⟨4, ![a, b, h, w]⟩ : Shape).ShapeCasts ⟨3, ![a, b, n]⟩) (p : Fin a) (q : Fin b) (r : Fin h) (s : Fin w) (L : Fin n)
    (hL : L.val = r.val * w + s.val) :
    shapeCast ⟨3, ![a, b, n]⟩ f hc (ix3 p q L) = f (ix4 p q r s) :=
  shapeCast_apply f hc _ _ (position_eq hn p q r s L hL)

/-- The un-flattened array at (p, q, r, s) is the array at (p, q, r·w + s). -/
theorem unflatten_at {a b h w n : Nat} (hn : n = h * w) (g : (⟨3, ![a, b, n]⟩ : Shape).Idx → α)
    (hc : (⟨3, ![a, b, n]⟩ : Shape).ShapeCasts ⟨4, ![a, b, h, w]⟩) (p : Fin a) (q : Fin b) (r : Fin h) (s : Fin w) (L : Fin n)
    (hL : L.val = r.val * w + s.val) :
    shapeCast ⟨4, ![a, b, h, w]⟩ g hc (ix4 p q r s) = g (ix3 p q L) :=
  shapeCast_apply g hc _ _ (position_eq hn p q r s L hL).symm

end FlattenSpatial

end
-- ==== Proof.Agree.lean ====
/-
  The two programs compute one function.

  The reference sums `x` and `x·x` over the two spatial axes (h, w); the kernel program sums the flattened rows
  in 7 runs of 1792 positions.  Position r·112 + s of a flattened row is (r, s), and a sum over 12544 positions
  is the sum over 112 × 112 of them as well as over 7 × 1792 of them (addition of extended reals is commutative
  and associative, infinities included, so no finiteness is used).  So the two pairs of sums are equal, hence the
  blended statistics are; and at every element both programs apply the same scalar function to the same five
  numbers.
-/
import proofs.«167167_j38560216383790_2_alg».proof.Proof.Spec
import proofs.«167167_j38560216383790_2_alg».proof.Proof.RefSide
import proofs.«167167_j38560216383790_2_alg».proof.Proof.LibBlockSum
import proofs.«167167_j38560216383790_2_alg».proof.Proof.LibFlattenSpatial

set_option maxRecDepth 16384

noncomputable section

namespace Cert.Agree

open Idealize.ShloMosaic Idealize.ShloMosaic.ValueIdx
open Cert.KernelIdeal (Spec.flat Spec.onFlat Spec.result)
open Cert.KernelIdeal.Sums (rowSum sq place)

/-- A sum over `N = nb · bs` positions, block by block. -/
theorem sum_in_blocks {M : Type*} [AddCommMonoid M] (N nb bs : Nat) (hN : N = nb * bs) (f : Fin N → M) :
    ∑ k, f k = ∑ b : Fin nb, ∑ r : Fin bs, f ⟨b.val * bs + r.val, hN ▸ BlockSum.pos_lt b r⟩ := by
  subst hN
  exact BlockSum.sum_fin_blocks nb bs f

/-- Row (b, ch) of the flattened array summed in 7 runs of 1792 is the double sum of the array over h and w. -/
theorem rowSum_flat (f : Cert.KernelIdeal.S64x64x112x112.Idx → EReal) (j : Cert.KernelIdeal.S64x64.Idx) :
    rowSum (shapeCast Cert.KernelIdeal.S64x64x12544 f Cert.KernelIdeal.Facts₀.shapeCasts_S64x64x112x112_S64x64x12544) j
      = ∑ h : Fin 112, ∑ w : Fin 112, f (ix4 (j 0 : Fin 64) (j 1 : Fin 64) h w) := by
  unfold rowSum
  have hruns : (∑ s : Fin 7, ∑ l : Fin 1792,
        shapeCast Cert.KernelIdeal.S64x64x12544 f Cert.KernelIdeal.Facts₀.shapeCasts_S64x64x112x112_S64x64x12544
          (ix3 (j 0 : Fin 64) (j 1 : Fin 64) (place s l)))
      = ∑ k : Fin 12544, shapeCast Cert.KernelIdeal.S64x64x12544 f Cert.KernelIdeal.Facts₀.shapeCasts_S64x64x112x112_S64x64x12544
          (ix3 (j 0 : Fin 64) (j 1 : Fin 64) k) := by
    rw [sum_in_blocks 12544 7 1792 (by norm_num)]
    refine Finset.sum_congr rfl fun s _ => Finset.sum_congr rfl fun l _ => ?_
    refine congrArg (fun k : Fin 12544 => shapeCast Cert.KernelIdeal.S64x64x12544 f _ (ix3 (j 0 : Fin 64) (j 1 : Fin 64) k)) (Fin.ext ?_)
    show 1792 * s.val + l.val = s.val * 1792 + l.val
    omega
  rw [hruns, sum_in_blocks 12544 112 112 (by norm_num)]
  refine Finset.sum_congr rfl fun h _ => Finset.sum_congr rfl fun w _ => ?_
  exact FlattenSpatial.flatten_at (by norm_num) f _ (j 0 : Fin 64) (j 1 : Fin 64) h w _ rfl

/-- The kernel program's row sums are the reference's spatial sums. -/
theorem sums_agree (x : Cert.ReferenceIdeal.S64x64x112x112.Idx → EReal) :
    rowSum (Spec.flat x) = Cert.ReferenceIdeal.Read.val_main_v0 (F := Ideal) x := by
  funext j
  refine (rowSum_flat x j).trans ?_
  exact (Cert.ReferenceIdeal.Side.spatial_sum x j).symm

/-- … and the row sums of squares likewise. -/
theorem sumsq_agree (x : Cert.ReferenceIdeal.S64x64x112x112.Idx → EReal) :
    rowSum (sq (Spec.flat x)) = Cert.ReferenceIdeal.Read.val_main_v2 (F := Ideal) x := by
  funext j
  refine (rowSum_flat (fun i => x i * x i) j).trans ?_
  exact (Cert.ReferenceIdeal.Side.spatial_sum (fun i => x i * x i) j).symm

/-- The kernel program's result, as a function of the arguments, is the reference's. -/
theorem result_agree (x : Cert.ReferenceIdeal.S64x64x112x112.Idx → EReal) (rm rv w b : Cert.ReferenceIdeal.S64.Idx → EReal)
    (lab : Cert.ReferenceIdeal.S64.Idx → BitVec 32) :
    Spec.result x rm rv w b lab = Cert.ReferenceIdeal.Read.val_main_v72 (F := Ideal) x rm rv w b lab := by
  funext i
  obtain ⟨p, q, r, s, rfl⟩ : ∃ (p : Fin 64) (q : Fin 64) (r : Fin 112) (s : Fin 112), i = ix4 p q r s :=
    ⟨i 0, i 1, i 2, i 3, eq_ix4 i⟩
  rw [Cert.ReferenceIdeal.Side.result_at, ← sums_agree, ← sumsq_agree]
  have hpos : r.val * 112 + s.val < 12544 := by have := r.isLt; have := s.isLt; omega
  unfold Spec.result
  rw [FlattenSpatial.unflatten_at (by norm_num) (Spec.onFlat x rm rv w b lab) _ p q r s ⟨r.val * 112 + s.val, hpos⟩ rfl]
  unfold Spec.onFlat Cert.KernelIdeal.Norm.whole
  show Cert.KernelIdeal.Norm.point (F := Ideal) (Spec.flat x (ix3 p q ⟨r.val * 112 + s.val, hpos⟩)) _ _ _ _ = _
  unfold Spec.flat
  rw [FlattenSpatial.flatten_at (by norm_num) x _ p q r s ⟨r.val * 112 + s.val, hpos⟩ rfl]

end Cert.Agree

end
-- ==== Proof.lean ====
/-
  The certificate's five claims for the cluster-wise normalization kernel.

  The kernel program reshapes `x` to [64, 64, 12544], sums `x` and `x·x` over the flattened spatial axis in a first
  launch (an accumulator carried across the seven position blocks of each group of eight samples), computes the
  per-cluster mean and unbiased variance and blends them with the running statistics on the host, normalizes,
  scales and shifts every element in a second launch, and reshapes back.  The reference does the same with plain
  array operations, summing over (h, w) directly.

  * The three frame claims: the two kernel programs' are the generated frame theorems; the reference's is its
    generated run with the result dropped.
  * The idealization rewrote nothing, so its claim is trivial.
  * Equality at the exact instance: the kernel program's result buffer ends at `Spec.result` of the arguments
    (the run read through the segment boundaries: KernelResult), the reference's at its composed term, and the
    two are one function of the arguments (Agree): sums over 12544 positions regrouped, the host arithmetic
    shared, the same scalar function at each element.  No finiteness of the inputs is used.
-/
import proofs.«167167_j38560216383790_2_alg».proof.Defs
import proofs.«167167_j38560216383790_2_alg».proof.Proof.Gen.Kernel
import proofs.«167167_j38560216383790_2_alg».proof.Proof.Gen.Kernel.Skeleton
import proofs.«167167_j38560216383790_2_alg».proof.Proof.Gen.Kernel.Launch
import proofs.«167167_j38560216383790_2_alg».proof.Proof.Gen.Kernel.Points
import proofs.«167167_j38560216383790_2_alg».proof.Proof.Gen.Kernel.Frame
import proofs.«167167_j38560216383790_2_alg».proof.Proof.Gen.KernelIdeal
import proofs.«167167_j38560216383790_2_alg».proof.Proof.Gen.KernelIdeal.Skeleton
import proofs.«167167_j38560216383790_2_alg».proof.Proof.Gen.KernelIdeal.Launch
import proofs.«167167_j38560216383790_2_alg».proof.Proof.Gen.KernelIdeal.Points
import proofs.«167167_j38560216383790_2_alg».proof.Proof.Gen.KernelIdeal.Frame
import proofs.«167167_j38560216383790_2_alg».proof.Proof.Gen.ReferenceIdeal
import proofs.«167167_j38560216383790_2_alg».proof.Proof.Gen.ReferenceIdeal.Run
import proofs.«167167_j38560216383790_2_alg».proof.Proof.Gen.ReferenceIdeal.Read
import proofs.«167167_j38560216383790_2_alg».proof.Proof.Gen.Pre_finite_inputs
import proofs.«167167_j38560216383790_2_alg».proof.Proof.KernelResult
import proofs.«167167_j38560216383790_2_alg».proof.Proof.Agree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2.1, (hagree c).2.2.1, (hagree c).2.2.2.1,
    (hagree c).2.2.2.2.1, (hagree c).2.2.2.2.2]
  exact (Cert.Agree.result_agree _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
